-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x48x64x256 : Shape := ⟨4, ![32, 48, 64, 256]⟩
abbrev S32x64x2 : Shape := ⟨3, ![32, 64, 2]⟩
abbrev S32x2 : Shape := ⟨2, ![32, 2]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S32x48x64x256 : S_.BroadcastsInDim S32x48x64x256 (![] : Fin 0 → Fin S32x48x64x256.rank)
  reducesTo_S32x48x64x256_S_d0_1_2_3 : S32x48x64x256.ReducesTo [0, 1, 2, 3] S_
  h_S_ : 0 < S_.numel
  bcast_S_S32x64x2 : S_.BroadcastsInDim S32x64x2 (![] : Fin 0 → Fin S32x64x2.rank)
  reducesTo_S32x64x2_S_d0_1_2 : S32x64x2.ReducesTo [0, 1, 2] S_
  bcast_S_S32x2 : S_.BroadcastsInDim S32x2 (![] : Fin 0 → Fin S32x2.rank)
  reducesTo_S32x2_S_d0_1 : S32x2.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S256x1 .f32) (main_arg6 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S32x48x64x256 .f32) (main_arg1 : FVec F S32x64x2 .f32) (main_arg2 : FVec F S32x2 .f32) (main_arg3 : FVec F S256x256 .f32) (main_arg4 : FVec F S256 .f32) (main_arg5 : FVec F S256x1 .f32) (main_arg6 : FVec F S1 .f32) : IVec S_ 1 :=
  let main_v0 : FVec F S32x48x64x256 .f32 := Host.absf main_arg0
  let main_cst : FVec F S_ .f32 := constant S_ .f32 0x7F800000#32
  let main_v1 : FVec F S32x48x64x256 .f32 := broadcastInDim S32x48x64x256 ![] bcast_S_S32x48x64x256 main_cst
  let main_v2 : IVec S32x48x64x256 1 := cmpf .olt main_v0 main_v1
  let main_c : IVec S_ 1 := constantI S_ 1 1#1
  let main_v3 : IVec S_ 1 := (fun x v => Host.reduce IntOp.andi x v reducesTo_S32x48x64x256_S_d0_1_2_3 h_S_) main_v2 main_c
  let main_v4 : FVec F S32x64x2 .f32 := Host.absf main_arg1
  let main_cst_0 : FVec F S_ .f32 := constant S_ .f32 0x7F800000#32
  let main_v5 : FVec F S32x64x2 .f32 := broadcastInDim S32x64x2 ![] bcast_S_S32x64x2 main_cst_0
  let main_v6 : IVec S32x64x2 1 := cmpf .olt main_v4 main_v5
  let main_c_1 : IVec S_ 1 := constantI S_ 1 1#1
  let main_v7 : IVec S_ 1 := (fun x v => Host.reduce IntOp.andi x v reducesTo_S32x64x2_S_d0_1_2 h_S_) main_v6 main_c_1
  let main_v8 : IVec S_ 1 := andi main_v3 main_v7
  let main_v9 : FVec F S32x2 .f32 := Host.absf main_arg2
  let main_cst_2 : FVec F S_ .f32 := constant S_ .f32 0x7F800000#32
  let main_v10 : FVec F S32x2 .f32 := broadcastInDim S32x2 ![] bcast_S_S32x2 main_cst_2
  let main_v11 : IVec S32x2 1 := cmpf .olt main_v9 main_v10
  let main_c_3 : IVec S_ 1 := constantI S_ 1 1#1
  let main_v12 : IVec S_ 1 := (fun x v => Host.reduce IntOp.andi x v reducesTo_S32x2_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S32x48x64x256 : Shape := ⟨4, ![32, 48, 64, 256]⟩
abbrev S32x64x2 : Shape := ⟨3, ![32, 64, 2]⟩
abbrev S32x2 : Shape := ⟨2, ![32, 2]⟩
abbrev S256x256 : Shape := ⟨2, ![256, 256]⟩
abbrev S256 : Shape := ⟨1, ![256]⟩
abbrev S256x1 : Shape := ⟨2, ![256, 1]⟩
abbrev S1 : Shape := ⟨1, ![1]⟩
abbrev S32x1x2 : Shape := ⟨3, ![32, 1, 2]⟩
abbrev S_ : Shape := ⟨0, ![]⟩
abbrev S32x64 : Shape := ⟨2, ![32, 64]⟩
abbrev S1x256 : Shape := ⟨2, ![1, 256]⟩
abbrev S1x1 : Shape := ⟨2, ![1, 1]⟩
abbrev S32x64x1 : Shape := ⟨3, ![32, 64, 1]⟩
abbrev S32x48x256 : Shape := ⟨3, ![32, 48, 256]⟩
abbrev S2x48x64x256 : Shape := ⟨4, ![2, 48, 64, 256]⟩
abbrev S2x64x1 : Shape := ⟨3, ![2, 64, 1]⟩
abbrev S2x48x256 : Shape := ⟨3, ![2, 48, 256]⟩
abbrev S6144x256 : Shape := ⟨2, ![6144, 256]⟩
abbrev S1x1x1x256 : Shape := ⟨4, ![1, 1, 1, 256]⟩
abbrev S2x48x64 : Shape := ⟨3, ![2, 48, 64]⟩
abbrev S2x48x64x1 : Shape := ⟨4, ![2, 48, 64, 1]⟩
abbrev S1x1x1x1 : Shape := ⟨4, ![1, 1, 1, 1]⟩
abbrev S2x1x64x1 : Shape := ⟨4, ![2, 1, 64, 1]⟩
abbrev S2x48x1 : Shape := ⟨3, ![2, 48, 1]⟩
abbrev S2x48x1x1 : Shape := ⟨4, ![2, 48, 1, 1]⟩

abbrev nBuf : Space → Nat
  | .hbm => 22
  | .vmem => 10
  | .smem => 0
  | _ => 0

abbrev bufTy : (tb : Table) → Fin (tcTables nBuf tb) → BufTy
  | .hbm, ⟨0, _⟩ => ⟨S32x48x64x256, .f32⟩
  | .hbm, ⟨1, _⟩ => ⟨S32x64x2, .f32⟩
  | .hbm, ⟨2, _⟩ => ⟨S32x2, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S32x1x2, .f32⟩
  | .hbm, ⟨8, _⟩ => ⟨S32x64x2, .f32⟩
  | .hbm, ⟨9, _⟩ => ⟨S32x64x2, .f32⟩
  | .hbm, ⟨10, _⟩ => ⟨S32x64x2, .f32⟩
  | .hbm, ⟨11, _⟩ => ⟨S_, .f32⟩
  | .hbm, ⟨12, _⟩ => ⟨S32x64, .f32⟩
  | .hbm, ⟨13, _⟩ => ⟨S32x64, .f32⟩
  | .hbm, ⟨14, _⟩ => ⟨S_, .f32⟩
  | .hbm, ⟨15, _⟩ => ⟨S32x64, .f32⟩
  | .hbm, ⟨16, _⟩ => ⟨S32x64, .f32⟩
  | .hbm, ⟨17, _⟩ => ⟨S1x256, .f32⟩
  | .hbm, ⟨18, _⟩ => ⟨S1x1, .f32⟩
  | .hbm, ⟨19, _⟩ => ⟨S1x256, .f32⟩
  | .hbm, ⟨20, _⟩ => ⟨S32x64x1, .f32⟩
  | .hbm, ⟨21, _⟩ => ⟨S32x48x256, .f32⟩
  | .local _ .vmem, ⟨0, _⟩ => ⟨S2x48x64x256, .f32⟩
  | .local _ .vmem, ⟨1, _⟩ => ⟨S2x48x64x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S1x1, .f32⟩
  | .local _ .vmem, ⟨6, _⟩ => ⟨S2x64x1, .f32⟩
  | .local _ .vmem, ⟨7, _⟩ => ⟨S2x64x1, .f32⟩
  | .local _ .vmem, ⟨8, _⟩ => ⟨S2x48x256, .f32⟩
  | .local _ .vmem, ⟨9, _⟩ => ⟨S2x48x256, .f32⟩
  | _, _ => ⟨S32x48x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x48x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x48x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S32x2_S32x1x2_0_2 : S32x2.BroadcastsInDim S32x1x2 (![0, 2] : Fin 2 → Fin S32x1x2.rank)
  bcast_S32x1x2_S32x64x2_0_1_2 : S32x1x2.BroadcastsInDim S32x64x2 (![0, 1, 2] : Fin 3 → Fin S32x64x2.rank)
  reducesTo_S32x64x2_S32x64_d2 : S32x64x2.ReducesTo [2] S32x64
  h_S_ : 0 < S_.numel
  bcast_S_S32x64 : S_.BroadcastsInDim S32x64 (![] : Fin 0 → Fin S32x64.rank)
  shapeCasts_S256_S1x256 : S256.ShapeCasts S1x256
  shapeCasts_S1_S1x1 : S1.ShapeCasts S1x1
  shapeCasts_S256x1_S1x256 : S256x1.ShapeCasts S1x256
  shapeCasts_S32x64_S32x64x1 : S32x64.ShapeCasts S32x64x1
  inb_S2x48x64x256_S2x48x64x256_0_0_0_0 : ∀ a, (![0, 0, 0, 0] : Fin 4 → Nat) a + S2x48x64x256.size a ≤ S2x48x64x256.size a
  h_S2x48x64x256 : 0 < S2x48x64x256.numel
  shapeCasts_S2x48x64x256_S6144x256 : S2x48x64x256.ShapeCasts S6144x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6144x256 : S1x256.Broadcasts S6144x256
  shapeCasts_S6144x256_S2x48x64x256 : S6144x256.ShapeCasts S2x48x64x256
  shapeCasts_S1x256_S1x1x1x256 : S1x256.ShapeCasts S1x1x1x256
  broadcasts_S1x1x1x256_S2x48x64x256 : S1x1x1x256.Broadcasts S2x48x64x256
  reduces_S2x48x64x256_S2x48x64 : S2x48x64x256.Reduces [3] S2x48x64
  shapeCasts_S2x48x64_S2x48x64x1 : S2x48x64.ShapeCasts S2x48x64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1x1 : S1x1.ShapeCasts S1x1x1x1
  broadcasts_S1x1x1x1_S2x48x64x1 : S1x1x1x1.Broadcasts S2x48x64x1
  inb_S2x64x1_S2x64x1_0_0_0 : ∀ a, (![0, 0, 0] : Fin 3 → Nat) a + S2x64x1.size a ≤ S2x64x1.size a
  h_S2x64x1 : 0 < S2x64x1.numel
  shapeCasts_S2x64x1_S2x64x1 : S2x64x1.ShapeCasts S2x64x1
  shapeCasts_S2x64x1_S2x1x64x1 : S2x64x1.ShapeCasts S2x1x64x1
  broadcasts_S2x1x64x1_S2x48x64x1 : S2x1x64x1.Broadcasts S2x48x64x1
  reduces_S2x48x64x1_S2x48x1 : S2x48x64x1.Reduces [2] S2x48x1
  shapeCasts_S2x48x1_S2x48x1x1 : S2x48x1.ShapeCasts S2x48x1x1
  broadcasts_S2x48x1x1_S2x48x64x1 : S2x48x1x1.Broadcasts S2x48x64x1
  broadcasts_S2x48x64x1_S2x48x64x256 : S2x48x64x1.Broadcasts S2x48x64x256
  reduces_S2x48x64x256_S2x48x256 : S2x48x64x256.Reduces [2] S2x48x256
  inb_S2x48x256_S2x48x256_0_0_0 : ∀ a, (![0, 0, 0] : Fin 3 → Nat) a + S2x48x256.size a ≤ S2x48x256.size a
  h_S2x48x256 : 0 < S2x48x256.numel
  dot_S6144x256_S256x256_S6144x256_1_0_0_1_n_n_wf : DotDims.WF S6144x256 S256x256 S6144x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x48x64x256.size a ≤ S32x48x64x256.size a
  hwx0_0 : ∀ i : grid0.Coords, EltTy.bits .f32 = 32 ∨ (Rect.block (s := S32x48x64x256) S2x48x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x64x1.size a ≤ S32x64x1.size a
  hwx0_5 : ∀ i : grid0.Coords, EltTy.bits .f32 = 32 ∨ (Rect.block (s := S32x64x1) S2x64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x48x256.size a ≤ S32x48x256.size a
  hwx0_6 : ∀ i : grid0.Coords, EltTy.bits .f32 = 32 ∨ (Rect.block (s := S32x48x256) S2x48x256.size (cc0_transform_6 i) (hinb0_6 i)).WholeWords (EltTy.packing .f32)

variable [Facts₀]

def dot_S6144x256_S256x256_S6144x256_1_0_0_1_n_n : DotDims S6144x256 S256x256 S6144x256 where
  lhsContracting := [1]
  rhsContracting := [0]
  lhsNonContracting := [0]
  rhsNonContracting := [1]
  lhsBatch := []
  rhsBatch := []
  wf := dot_S6144x256_S256x256_S6144x256_1_0_0_1_n_n_wf

abbrev win0_0 : Pipeline.Window sig grid0 :=
  Pipeline.Window.ofSpec (Memref.whole main_arg0) S2x48x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2x64x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S2x48x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x48x64x256 : Shape := ⟨4, ![32, 48, 64, 256]⟩
abbrev S32x64x2 : Shape := ⟨3, ![32, 64, 2]⟩
abbrev S32x2 : Shape := ⟨2, ![32, 2]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1x1x256 : Shape := ⟨4, ![1, 1, 1, 256]⟩
abbrev S_ : Shape := ⟨0, ![]⟩
abbrev S32x48x64x1 : Shape := ⟨4, ![32, 48, 64, 1]⟩
abbrev S1x1x1x1 : Shape := ⟨4, ![1, 1, 1, 1]⟩
abbrev S32x1x2 : Shape := ⟨3, ![32, 1, 2]⟩
abbrev S32x64 : Shape := ⟨2, ![32, 64]⟩
abbrev S32x1x64x1 : Shape := ⟨4, ![32, 1, 64, 1]⟩
abbrev S32x48x1 : Shape := ⟨3, ![32, 48, 1]⟩
abbrev S32x48x1x1 : Shape := ⟨4, ![32, 48, 1, 1]⟩
abbrev S32x48x256 : Shape := ⟨3, ![32, 48, 256]⟩

abbrev nBuf : Space → Nat
  | .hbm => 52
  | .vmem => 0
  | .smem => 0
  | _ => 0

abbrev bufTy : (tb : Table) → Fin (tcTables nBuf tb) → BufTy
  | .hbm, ⟨0, _⟩ => ⟨S32x48x64x256, .f32⟩
  | .hbm, ⟨1, _⟩ => ⟨S32x64x2, .f32⟩
  | .hbm, ⟨2, _⟩ => ⟨S32x2, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S32x48x64x256, .f32⟩
  | .hbm, ⟨8, _⟩ => ⟨S1x1x1x256, .f32⟩
  | .hbm, ⟨9, _⟩ => ⟨S32x48x64x256, .f32⟩
  | .hbm, ⟨10, _⟩ => ⟨S32x48x64x256, .f32⟩
  | .hbm, ⟨11, _⟩ => ⟨S_, .f32⟩
  | .hbm, ⟨12, _⟩ => ⟨S32x48x64x256, .f32⟩
  | .hbm, ⟨13, _⟩ => ⟨S32x48x64x256, .f32⟩
  | .hbm, ⟨14, _⟩ => ⟨S32x48x64x1, .f32⟩
  | .hbm, ⟨15, _⟩ => ⟨S1x1x1x1, .f32⟩
  | .hbm, ⟨16, _⟩ => ⟨S32x48x64x1, .f32⟩
  | .hbm, ⟨17, _⟩ => ⟨S32x48x64x1, .f32⟩
  | .hbm, ⟨18, _⟩ => ⟨S_, .f32⟩
  | .hbm, ⟨19, _⟩ => ⟨S32x48x64x1, .f32⟩
  | .hbm, ⟨20, _⟩ => ⟨S32x48x64x1, .f32⟩
  | .hbm, ⟨21, _⟩ => ⟨S32x1x2, .f32⟩
  | .hbm, ⟨22, _⟩ => ⟨S32x64x2, .f32⟩
  | .hbm, ⟨23, _⟩ => ⟨S32x64x2, .f32⟩
  | .hbm, ⟨24, _⟩ => ⟨S32x64x2, .f32⟩
  | .hbm, ⟨25, _⟩ => ⟨S_, .f32⟩
  | .hbm, ⟨26, _⟩ => ⟨S32x64, .f32⟩
  | .hbm, ⟨27, _⟩ => ⟨S32x64, .f32⟩
  | .hbm, ⟨28, _⟩ => ⟨S_, .f32⟩
  | .hbm, ⟨29, _⟩ => ⟨S32x64, .f32⟩
  | .hbm, ⟨30, _⟩ => ⟨S32x64, .f32⟩
  | .hbm, ⟨31, _⟩ => ⟨S32x1x64x1, .f32⟩
  | .hbm, ⟨32, _⟩ => ⟨S32x48x64x1, .f32⟩
  | .hbm, ⟨33, _⟩ => ⟨S32x48x64x1, .f32⟩
  | .hbm, ⟨34, _⟩ => ⟨S_, .f32⟩
  | .hbm, ⟨35, _⟩ => ⟨S32x48x1, .f32⟩
  | .hbm, ⟨36, _⟩ => ⟨S_, .f32⟩
  | .hbm, ⟨37, _⟩ => ⟨S32x48x1, .f32⟩
  | .hbm, ⟨38, _⟩ => ⟨S32x48x1, .f32⟩
  | .hbm, ⟨39, _⟩ => ⟨S32x48x1x1, .f32⟩
  | .hbm, ⟨40, _⟩ => ⟨S32x48x64x1, .f32⟩
  | .hbm, ⟨41, _⟩ => ⟨S32x48x64x1, .f32⟩
  | .hbm, ⟨42, _⟩ => ⟨S32x48x64x1, .f32⟩
  | .hbm, ⟨43, _⟩ => ⟨S_, .f32⟩
  | .hbm, ⟨44, _⟩ => ⟨S32x48x1, .f32⟩
  | .hbm, ⟨45, _⟩ => ⟨S32x48x1x1, .f32⟩
  | .hbm, ⟨46, _⟩ => ⟨S32x48x64x1, .f32⟩
  | .hbm, ⟨47, _⟩ => ⟨S32x48x64x1, .f32⟩
  | .hbm, ⟨48, _⟩ => ⟨S32x48x64x256, .f32⟩
  | .hbm, ⟨49, _⟩ => ⟨S32x48x64x256, .f32⟩
  | .hbm, ⟨50, _⟩ => ⟨S_, .f32⟩
  | .hbm, ⟨51, _⟩ => ⟨S32x48x256, .f32⟩
  | _, _ => ⟨S32x48x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S32x48x64x256_0_1_2_3 : S1x1x1x256.BroadcastsInDim S32x48x64x256 (![0, 1, 2, 3] : Fin 4 → Fin S32x48x64x256.rank)
  bcast_S_S32x48x64x256 : S_.BroadcastsInDim S32x48x64x256 (![] : Fin 0 → Fin S32x48x64x256.rank)
  bcast_S1_S1x1x1x1_3 : S1.BroadcastsInDim S1x1x1x1 (![3] : Fin 1 → Fin S1x1x1x1.rank)
  bcast_S1x1x1x1_S32x48x64x1_0_1_2_3 : S1x1x1x1.BroadcastsInDim S32x48x64x1 (![0, 1, 2, 3] : Fin 4 → Fin S32x48x64x1.rank)
  bcast_S_S32x48x64x1 : S_.BroadcastsInDim S32x48x64x1 (![] : Fin 0 → Fin S32x48x64x1.rank)
  bcast_S32x2_S32x1x2_0_2 : S32x2.BroadcastsInDim S32x1x2 (![0, 2] : Fin 2 → Fin S32x1x2.rank)
  bcast_S32x1x2_S32x64x2_0_1_2 : S32x1x2.BroadcastsInDim S32x64x2 (![0, 1, 2] : Fin 3 → Fin S32x64x2.rank)
  reducesTo_S32x64x2_S32x64_d2 : S32x64x2.ReducesTo [2] S32x64
  h_S_ : 0 < S_.numel
  bcast_S_S32x64 : S_.BroadcastsInDim S32x64 (![] : Fin 0 → Fin S32x64.rank)
  bcast_S32x64_S32x1x64x1_0_2 : S32x64.BroadcastsInDim S32x1x64x1 (![0, 2] : Fin 2 → Fin S32x1x64x1.rank)
  bcast_S32x1x64x1_S32x48x64x1_0_1_2_3 : S32x1x64x1.BroadcastsInDim S32x48x64x1 (![0, 1, 2, 3] : Fin 4 → Fin S32x48x64x1.rank)
  reducesTo_S32x48x64x1_S32x48x1_d2 : S32x48x64x1.ReducesTo [2] S32x48x1
  bcast_S_S32x48x1 : S_.BroadcastsInDim S32x48x1 (![] : Fin 0 → Fin S32x48x1.rank)
  bcast_S32x48x1_S32x48x1x1_0_1_3 : S32x48x1.BroadcastsInDim S32x48x1x1 (![0, 1, 3] : Fin 3 → Fin S32x48x1x1.rank)
  bcast_S32x48x1x1_S32x48x64x1_0_1_2_3 : S32x48x1x1.BroadcastsInDim S32x48x64x1 (![0, 1, 2, 3] : Fin 4 → Fin S32x48x64x1.rank)
  bcast_S32x48x64x1_S32x48x64x256_0_1_2_3 : S32x48x64x1.BroadcastsInDim S32x48x64x256 (![0, 1, 2, 3] : Fin 4 → Fin S32x48x64x256.rank)
  reducesTo_S32x48x64x256_S32x48x256_d2 : S32x48x64x256.ReducesTo [2] S32x48x256
  dot_S32x48x64x256_S256x256_S32x48x64x256_3_0_012_1_n_n_wf : DotDims.WF S32x48x64x256 S256x256 S32x48x64x256 [3] [0] [0, 1, 2] [1] [] []
  dot_S32x48x64x256_S256x1_S32x48x64x1_3_0_012_1_n_n_wf : DotDims.WF S32x48x64x256 S256x1 S32x48x64x1 [3] [0] [0, 1, 2] [1] [] []

variable [Facts₀]

def dot_S32x48x64x256_S256x256_S32x48x64x256_3_0_012_1_n_n : DotDims S32x48x64x256 S256x256 S32x48x64x256 where
  lhsContracting := [3]
  rhsContracting := [0]
  lhsNonContracting := [0, 1, 2]
  rhsNonContracting := [1]
  lhsBatch := []
  rhsBatch := []
  wf := dot_S32x48x64x256_S256x256_S32x48x64x256_3_0_012_1_n_n_wf
def dot_S32x48x64x256_S256x1_S32x48x64x1_3_0_012_1_n_n : DotDims S32x48x64x256 S256x1 S32x48x64x1 where
  lhsContracting := [3]
  rhsContracting := [0]
  lhsNonContracting := [0, 1, 2]
  rhsNonContracting := [1]
  lhsBatch := []
  rhsBatch := []
  wf := dot_S32x48x64x256_S256x1_S32x48x64x1_3_0_012_1_n_n_wf

class Facts : Prop extends Facts₀ where

variable [Facts]
-- ==== Proof.Attend.lean ====
/-
  One output row of the attention kernel, over the extended reals.

  Fix a batch row b and a sequence position s. Write x l f for the features of station l (64 stations, 256
  features), W1, b1 for the first layer, w2, b2 for the second (one output), and d l for the reciprocal distance
  of station l from the target. Then
    hidden l f = max (Σ_k x l k · W1 k f + b1 f) 0,
    score l    = max (Σ_f hidden l f · w2 f + b2) 0,
    logit l    = score l · d l,
    weight l   = exp (logit l − max_l' logit l') / Σ_l' exp (logit l' − max_l'' logit l''),
    out g      = Σ_l x l g · weight l.
  The maximum starts from the least extended real, written as the float word of minus infinity; the quotient is
  the extended reals' division. Nothing here needs an entry to be finite.
-/
import Idealize.ShloMosaic.PureOps.Ideal
import Idealize.ShloMosaic.Lib.ValueIdx

noncomputable section

namespace Cert.Attend

open Idealize.ShloMosaic Idealize.ShloMosaic.ValueIdx

/-- The first layer with its ReLU: station l, hidden feature f. -/
def hidden (x : Fin 64 → Fin 256 → EReal) (W1 : Fin 256 → Fin 256 → EReal) (b1 : Fin 256 → EReal) (l : Fin 64) (f : Fin 256) : EReal :=
  max ((∑ k : Fin 256, x l k * W1 k f) + b1 f) 0

/-- The second layer with its ReLU: one score per station. -/
def score (x : Fin 64 → Fin 256 → EReal) (W1 : Fin 256 → Fin 256 → EReal) (b1 w2 : Fin 256 → EReal) (b2 : EReal) (l : Fin 64) : EReal :=
  max ((∑ f : Fin 256, hidden x W1 b1 l f * w2 f) + b2) 0

/-- The score scaled by the station's reciprocal distance. -/
def logit (x : Fin 64 → Fin 256 → EReal) (W1 : Fin 256 → Fin 256 → EReal) (b1 w2 : Fin 256 → EReal) (b2 : EReal) (d : Fin 64 → EReal)
    (l : Fin 64) : EReal :=
  score x W1 b1 w2 b2 l * d l

/-- The largest of 64 extended reals, folded from the float word of minus infinity. -/
def peak (z : Fin 64 → EReal) : EReal :=
  (Finset.univ : Finset (Fin 64)).fold max (Ideal.ofBits .f32 0xFF800000#32) z

/-- The shifted exponential of one entry. -/
def shifted (z : Fin 64 → EReal) (l : Fin 64) : EReal := Ideal.exp (z l - peak z)

/-- The softmax weight of one entry. -/
def weight (z : Fin 64 → EReal) (l : Fin 64) : EReal := Ideal.div (shifted z l) (∑ l' : Fin 64, shifted z l')

/-- The output row: the stations' features averaged with the softmax weights of their logits. -/
def attend (x : Fin 64 → Fin 256 → EReal) (W1 : Fin 256 → Fin 256 → EReal) (b1 w2 : Fin 256 → EReal) (b2 : EReal) (d : Fin 64 → EReal)
    (g : Fin 256) : EReal :=
  ∑ l : Fin 64, x l g * weight (logit x W1 b1 w2 b2 d) l

/-- The result at batch row b, position s and feature g, from the features A0, the first layer A3 with bias A4, the
    second layer A5 (one column) with bias A6, and the reciprocal distances D (batch row by station). -/
def wholeAt (A0 : (⟨4, ![32, 48, 64, 256]⟩ : Shape).Idx → EReal) (A3 : (⟨2, ![256, 256]⟩ : Shape).Idx → EReal)
    (A4 : (⟨1, ![256]⟩ : Shape).Idx → EReal) (A5 : (⟨2, ![256, 1]⟩ : Shape).Idx → EReal) (A6 : (⟨1, ![1]⟩ : Shape).Idx → EReal)
    (D : (⟨2, ![32, 64]⟩ : Shape).Idx → EReal) (b : Fin 32) (s : Fin 48) (g : Fin 256) : EReal :=
  attend (fun l f => A0 (ix4 b s l f)) (fun k f => A3 (ix2 k f)) (fun f => A4 (ix1 f)) (fun f => A5 (ix2 f (0 : Fin 1)))
    (A6 (ix1 (0 : Fin 1))) (fun l => D (ix2 b l)) g

/-- The whole [32, 48, 256] result as one function of the argument arrays and the reciprocal distances. -/
def whole (A0 : (⟨4, ![32, 48, 64, 256]⟩ : Shape).Idx → EReal) (A3 : (⟨2, ![256, 256]⟩ : Shape).Idx → EReal)
    (A4 : (⟨1, ![256]⟩ : Shape).Idx → EReal) (A5 : (⟨2, ![256, 1]⟩ : Shape).Idx → EReal) (A6 : (⟨1, ![1]⟩ : Shape).Idx → EReal)
    (D : (⟨2, ![32, 64]⟩ : Shape).Idx → EReal) : (⟨3, ![32, 48, 256]⟩ : Shape).Idx → EReal :=
  fun i => wholeAt A0 A3 A4 A5 A6 D (i 0) (i 1) (i 2)

/-- The float word of minus infinity is the least extended real. -/
theorem negInf : Ideal.ofBits .f32 0xFF800000#32 = (⊥ : EReal) := by simp [Ideal.ofBits, Ideal.ieee]

/-- Taking the maximum with minus infinity once more changes nothing. -/
theorem max_negInf (y : EReal) : max (Ideal.ofBits .f32 0xFF800000#32) y = y := by
  rw [negInf]; exact max_eq_right bot_le

end Cert.Attend

end
-- ==== Proof.LibRank4.lean ====
/-
  Arrays with four axes read at one entry.

  A reshape keeps the row-major position of an entry, a broadcast reads the operand's entry 0 along each axis
  of extent one and the same coordinate along every other axis, and a reduction along one axis, read at an
  entry of the result, is the sum (or the fold of a commutative associative operation) over that axis'
  coordinate with the other three coordinates fixed. The lemmas below say this for the shapes [a, b, c, d]
  that a batched, per-position, per-station, per-feature computation meets, with every index written by its
  coordinates.
-/
import Idealize.ShloMosaic.PureOps.Ideal.Laws
import Idealize.ShloMosaic.Lib.ValueIdx
import Idealize.ShloMosaic.Lib.Pipeline.Value

noncomputable section

namespace Cert.LibRank4

open Idealize.ShloMosaic Idealize.ShloMosaic.ValueIdx

variable {α : Type}

/-! ## Reshapes -/

/-- [a, b, c, d] flattened to [n, d] (n = a·b·c) reads, at row (p·b + s)·c + l and column f, the entry (p, s, l, f). -/
theorem shapeCast_abcd_nd_apply {a b c d n : ℕ} (x : (⟨4, ![a, b, c, d]⟩ : Shape).Idx → α)
    (h : (⟨4, ![a, b, c, d]⟩ : Shape).ShapeCasts ⟨2, ![n, d]⟩) (p : Fin a) (s : Fin b) (l : Fin c) (f : Fin d) (r : Fin n)
    (hr : r.val = (p.val * b + s.val) * c + l.val) :
    shapeCast ⟨2, ![n, d]⟩ x h (ix2 r f) = x (ix4 p s l f) :=
  shapeCast_apply x h _ _ (by
    rw [Shape.rowMajor_val_four, Shape.rowMajor_val_two]
    show ((p.val * b + s.val) * c + l.val) * d + f.val = r.val * d + f.val
    rw [hr])

/-- [n, d] unflattened to [a, b, c, d] reads, at (p, s, l, f), row (p·b + s)·c + l and column f. -/
theorem shapeCast_nd_abcd_apply {a b c d n : ℕ} (x : (⟨2, ![n, d]⟩ : Shape).Idx → α)
    (h : (⟨2, ![n, d]⟩ : Shape).ShapeCasts ⟨4, ![a, b, c, d]⟩) (p : Fin a) (s : Fin b) (l : Fin c) (f : Fin d) (r : Fin n)
    (hr : r.val = (p.val * b + s.val) * c + l.val) :
    shapeCast ⟨4, ![a, b, c, d]⟩ x h (ix4 p s l f) = x (ix2 r f) :=
  shapeCast_apply x h _ _ (by
    rw [Shape.rowMajor_val_four, Shape.rowMajor_val_two]
    show r.val * d + f.val = ((p.val * b + s.val) * c + l.val) * d + f.val
    rw [hr])

/-- [a, b, c] given a trailing unit axis reads, at (p, s, l, u), the entry (p, s, l). -/
theorem shapeCast_abc_abc1_apply {a b c : ℕ} (x : (⟨3, ![a, b, c]⟩ : Shape).Idx → α)
    (h : (⟨3, ![a, b, c]⟩ : Shape).ShapeCasts ⟨4, ![a, b, c, 1]⟩) (p : Fin a) (s : Fin b) (l : Fin c) (u : Fin 1) :
    shapeCast ⟨4, ![a, b, c, 1]⟩ x h (ix4 p s l u) = x (ix3 p s l) :=
  shapeCast_apply x h _ _ (by
    have hu : u.val = 0 := by omega
    rw [Shape.rowMajor_val_four, Shape.rowMajor_val_three]
    show (p.val * b + s.val) * c + l.val = ((p.val * b + s.val) * c + l.val) * 1 + u.val
    rw [hu, Nat.mul_one, Nat.add_zero])

/-- [1, d] given two more leading unit axes reads, at (u0, u1, u2, f), the entry (0, f). -/
theorem shapeCast_1d_111d_apply {d : ℕ} (x : (⟨2, ![1, d]⟩ : Shape).Idx → α)
    (h : (⟨2, ![1, d]⟩ : Shape).ShapeCasts ⟨4, ![1, 1, 1, d]⟩) (u0 u1 u2 : Fin 1) (f : Fin d) :
    shapeCast ⟨4, ![1, 1, 1, d]⟩ x h (ix4 u0 u1 u2 f) = x (ix2 (0 : Fin 1) f) :=
  shapeCast_apply x h _ _ (by
    have h0 : u0.val = 0 := by omega
    have h1 : u1.val = 0 := by omega
    have h2 : u2.val = 0 := by omega
    rw [Shape.rowMajor_val_four, Shape.rowMajor_val_two]
    show 0 * d + f.val = ((u0.val * 1 + u1.val) * 1 + u2.val) * d + f.val
    rw [h0, h1, h2])

/-- [a, c, 1] given a unit axis in second place reads, at (p, u, l, v), the entry (p, l, v). -/
theorem shapeCast_ac1_a1c1_apply {a c : ℕ} (x : (⟨3, ![a, c, 1]⟩ : Shape).Idx → α)
    (h : (⟨3, ![a, c, 1]⟩ : Shape).ShapeCasts ⟨4, ![a, 1, c, 1]⟩) (p : Fin a) (u : Fin 1) (l : Fin c) (v : Fin 1) :
    shapeCast ⟨4, ![a, 1, c, 1]⟩ x h (ix4 p u l v) = x (ix3 p l v) :=
  shapeCast_apply x h _ _ (by
    have hu : u.val = 0 := by omega
    rw [Shape.rowMajor_val_four, Shape.rowMajor_val_three]
    show (p.val * c + l.val) * 1 + v.val = ((p.val * 1 + u.val) * c + l.val) * 1 + v.val
    simp only [hu, Nat.mul_one, Nat.add_zero])

/-- [a, b, 1] given a trailing unit axis reads, at (p, s, u, v), the entry (p, s, u). -/
theorem shapeCast_ab1_ab11_apply {a b : ℕ} (x : (⟨3, ![a, b, 1]⟩ : Shape).Idx → α)
    (h : (⟨3, ![a, b, 1]⟩ : Shape).ShapeCasts ⟨4, ![a, b, 1, 1]⟩) (p : Fin a) (s : Fin b) (u v : Fin 1) :
    shapeCast ⟨4, ![a, b, 1, 1]⟩ x h (ix4 p s u v) = x (ix3 p s u) :=
  shapeCast_apply x h _ _ (by
    have hv : v.val = 0 := by omega
    rw [Shape.rowMajor_val_four, Shape.rowMajor_val_three]
    show (p.val * b + s.val) * 1 + u.val = ((p.val * b + s.val) * 1 + u.val) * 1 + v.val
    simp only [hv, Nat.mul_one, Nat.add_zero])

/-- [a, b] given a trailing unit axis reads, at (p, q, u), the entry (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    simp only [hu, Nat.mul_one, Nat.add_zero])

/-- A column [a, 1] laid out as a row [1, a] reads, at (u, f), the column's entry (f, 0). -/
theorem shapeCast_a1_1a_apply {a : ℕ} (x : (⟨2, ![a, 1]⟩ : Shape).Idx → α)
    (h : (⟨2, ![a, 1]⟩ : Shape).ShapeCasts ⟨2, ![1, a]⟩) (u : Fin 1) (f : Fin a) :
    shapeCast ⟨2, ![1, a]⟩ x h (ix2 u f) = x (ix2 f (0 : Fin 1)) :=
  shapeCast_apply x h _ _ (by
    have hu : u.val = 0 := by omega
    rw [Shape.rowMajor_val_two, Shape.rowMajor_val_two]
    show f.val * 1 + 0 = u.val * a + f.val
    simp only [hu, Nat.mul_one, Nat.add_zero, Nat.zero_mul, Nat.zero_add])

/-! ## Broadcasts -/

/-- One row [1, 1, 1, d] spread over [a, b, c, d] reads, at (p, s, l, f), the row's entry f. -/
theorem broadcastTo_111d_abcd_apply {a b c d : ℕ} (x : (⟨4, ![1, 1, 1, d]⟩ : Shape).Idx → α)
    (h : (⟨4, ![1, 1, 1, d]⟩ : Shape).Broadcasts ⟨4, ![a, b, c, d]⟩) (p : Fin a) (s : Fin b) (l : Fin c) (f : Fin d) :
    broadcastTo ⟨4, ![a, b, c, d]⟩ x h (ix4 p s l f) = x (ix4 (0 : Fin 1) (0 : Fin 1) (0 : Fin 1) f) := by
  refine broadcastTo_apply x h (ix4 p s l f) (ix4 (0 : Fin 1) (0 : Fin 1) (0 : Fin 1) f) fun ax => ?_
  match ax with
  | ⟨0, _⟩ => rfl
  | ⟨1, _⟩ => rfl
  | ⟨2, _⟩ => rfl
  | ⟨3, _⟩ =>
    show f.val = if d = 1 then 0 else f.val
    split
    · have := f.isLt; omega
    · rfl

/-- [a, 1, c, 1] spread along its second axis to [a, b, c, 1] reads, at (p, s, l, u), the entry (p, 0, l, 0). -/
theorem broadcastTo_a1c1_abc1_apply {a b c : ℕ} (x : (⟨4, ![a, 1, c, 1]⟩ : Shape).Idx → α)
    (h : (⟨4, ![a, 1, c, 1]⟩ : Shape).Broadcasts ⟨4, ![a, b, c, 1]⟩) (p : Fin a) (s : Fin b) (l : Fin c) (u : Fin 1) :
    broadcastTo ⟨4, ![a, b, c, 1]⟩ x h (ix4 p s l u) = x (ix4 p (0 : Fin 1) l (0 : Fin 1)) := by
  refine broadcastTo_apply x h (ix4 p s l u) (ix4 p (0 : Fin 1) l (0 : Fin 1)) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl
  | ⟨3, _⟩ => rfl

/-- [a, b, 1, 1] spread along its third axis to [a, b, c, 1] reads, at (p, s, l, u), the entry (p, s, 0, 0). -/
theorem broadcastTo_ab11_abc1_apply {a b c : ℕ} (x : (⟨4, ![a, b, 1, 1]⟩ : Shape).Idx → α)
    (h : (⟨4, ![a, b, 1, 1]⟩ : Shape).Broadcasts ⟨4, ![a, b, c, 1]⟩) (p : Fin a) (s : Fin b) (l : Fin c) (u : Fin 1) :
    broadcastTo ⟨4, ![a, b, c, 1]⟩ x h (ix4 p s l u) = x (ix4 p s (0 : Fin 1) (0 : Fin 1)) := by
  refine broadcastTo_apply x h (ix4 p s l u) (ix4 p s (0 : Fin 1) (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl
  | ⟨3, _⟩ => rfl

/-- [a, b, c, 1] spread along its last axis to [a, b, c, d] reads, at (p, s, l, f), the entry (p, s, l, 0). -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (p : Fin a) (s : Fin b) (l : Fin c) (f : Fin d) :
    broadcastTo ⟨4, ![a, b, c, d]⟩ x h (ix4 p s l f) = x (ix4 p s l (0 : Fin 1)) := by
  refine broadcastTo_apply x h (ix4 p s l f) (ix4 p s l (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ =>
    show l.val = if c = 1 then 0 else l.val
    split
    · have := l.isLt; omega
    · rfl
  | ⟨3, _⟩ => rfl

/-! ## Reductions along one axis, over the extended reals -/

/-- The sum along the last axis of an [a, b, c, d] array, at (p, s, l), is the sum over f of the entry (p, s, l, f). -/
theorem multiReduction_add_last {a b c d : ℕ} (src : FVec Ideal (⟨4, ![a, b, c, d]⟩ : Shape) .f32)
    (h : (⟨4, ![a, b, c, d]⟩ : Shape).Reduces [3] ⟨3, ![a, b, c]⟩) (hφ : FKind.Formats .f32)
    (hacc : (0x00000000#32 : BitVec 32) = 0x00000000#32) (p : Fin a) (s : Fin b) (l : Fin c) :
    multiReduction .add [3] ⟨3, ![a, b, c]⟩ src 0x00000000#32 h hφ hacc (ix3 p s l) = ∑ f : Fin d, src (ix4 p s l f) := by
  refine (Ideal.multiReduction_add_single src 0x00000000#32 h hφ hacc (ix3 p s l)).trans ?_
  refine Finset.sum_congr rfl fun f _ => congrArg src (funext fun ax => Fin.ext ?_)
  match ax with
  | ⟨0, _⟩ => rfl
  | ⟨1, _⟩ => rfl
  | ⟨2, _⟩ => rfl
  | ⟨3, _⟩ => rfl

/-- The sum along the third axis of an [a, b, c, d] array, at (p, s, g), is the sum over l of the entry (p, s, l, g). -/
theorem multiReduction_add_third {a b c d : ℕ} (src : FVec Ideal (⟨4, ![a, b, c, d]⟩ : Shape) .f32)
    (h : (⟨4, ![a, b, c, d]⟩ : Shape).Reduces [2] ⟨3, ![a, b, d]⟩) (hφ : FKind.Formats .f32)
    (hacc : (0x00000000#32 : BitVec 32) = 0x00000000#32) (p : Fin a) (s : Fin b) (g : Fin d) :
    multiReduction .add [2] ⟨3, ![a, b, d]⟩ src 0x00000000#32 h hφ hacc (ix3 p s g) = ∑ l : Fin c, src (ix4 p s l g) := by
  refine (Ideal.multiReduction_add_single src 0x00000000#32 h hφ hacc (ix3 p s g)).trans ?_
  refine Finset.sum_congr rfl fun l _ => congrArg src (funext fun ax => Fin.ext ?_)
  match ax with
  | ⟨0, _⟩ => rfl
  | ⟨1, _⟩ => rfl
  | ⟨2, _⟩ => rfl
  | ⟨3, _⟩ => rfl

/-- The maximum along the third axis of an [a, b, c, d] array, at (p, s, g), is the fold of max, from the float word
    of minus infinity, over l of the entry (p, s, l, g). -/
theorem multiReduction_max_third {a b c d : ℕ} (src : FVec Ideal (⟨4, ![a, b, c, d]⟩ : Shape) .f32)
    (h : (⟨4, ![a, b, c, d]⟩ : Shape).Reduces [2] ⟨3, ![a, b, d]⟩) (hφ : FKind.Formats .f32)
    (hacc : (0xFF800000#32 : BitVec 32) = 0xFF800000#32) (p : Fin a) (s : Fin b) (g : Fin d) :
    multiReduction .maximumf [2] ⟨3, ![a, b, d]⟩ src 0xFF800000#32 h hφ hacc (ix3 p s g)
      = (Finset.univ : Finset (Fin c)).fold max (Ideal.ofBits .f32 0xFF800000#32) (fun l => src (ix4 p s l g)) := by
  refine (Ideal.multiReduction_maximumf_single src 0xFF800000#32 h hφ hacc (ix3 p s g)).trans ?_
  have e : (src ∘ h.lift (ix3 p s g)) = fun l : Fin c => src (ix4 p s l g) :=
    funext fun l => congrArg src (funext fun ax => Fin.ext (by
      match ax with
      | ⟨0, _⟩ => rfl
      | ⟨1, _⟩ => rfl
      | ⟨2, _⟩ => rfl
      | ⟨3, _⟩ => rfl))
  exact congrArg (fun z => Finset.fold max (Ideal.ofBits .f32 0xFF800000#32) z (Finset.univ : Finset (Fin c))) e

/-- A host reduction along the third axis of an [a, b, c, d] array with a commutative associative body, at (p, s, g),
    is the fold from the initial value over l of the entry (p, s, l, g). -/
theorem hostReduce_third {a b c d : ℕ} {u : Shape} (f : α → α → α) [Std.Commutative f] [Std.Associative f]
    (x : (⟨4, ![a, b, c, d]⟩ : Shape).Idx → α) (init : u.Idx → α)
    (h' : (⟨4, ![a, b, c, d]⟩ : Shape).ReducesTo [2] ⟨3, ![a, b, d]⟩) (h : (⟨4, ![a, b, c, d]⟩ : Shape).Reduces [2] ⟨3, ![a, b, d]⟩)
    (hu : 0 < u.numel) (p : Fin a) (s : Fin b) (g : Fin d) :
    Host.reduce f x init h' hu (ix3 p s g)
      = (Finset.univ : Finset (Fin c)).fold f (init (Shape.Idx.first hu)) (fun l => x (ix4 p s l g)) := by
  refine (Host.reduce_eq_fold_single f x init h' h hu (ix3 p s g)).trans ?_
  have e : (x ∘ h.lift (ix3 p s g)) = fun l : Fin c => x (ix4 p s l g) :=
    funext fun l => congrArg x (funext fun ax => Fin.ext (by
      match ax with
      | ⟨0, _⟩ => rfl
      | ⟨1, _⟩ => rfl
      | ⟨2, _⟩ => rfl
      | ⟨3, _⟩ => rfl))
  exact congrArg (fun z => Finset.fold f (init (Shape.Idx.first hu)) z (Finset.univ : Finset (Fin c))) e

end Cert.LibRank4

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.KernelRow.lean ====
/-
  The kernel body's value at one entry.

  At a grid point the body loads a block of two batch rows of the features, the two layers' weights and biases and
  the two rows' reciprocal distances, and stores one [2, 48, 256] block. Its arithmetic is read here stage by stage:
  the hidden layer (a matrix product over the flattened rows, a bias and a ReLU), the scores (a sum along the
  feature axis, a bias and a ReLU), the logits (the scores times the reciprocal distances), the shifted
  exponentials (each logit minus the largest logit of its (row, position) pair), their sums, and the weighted
  sum of the features. The entry (p, s, g) of the stored block is the attention row of the features at (p, s),
  computed from row p's reciprocal distances.
-/
import proofs.«104061_j38414187495506_2_alg».proof.Proof.Gen.KernelIdeal.Skeleton
import proofs.«104061_j38414187495506_2_alg».proof.Proof.Attend
import proofs.«104061_j38414187495506_2_alg».proof.Proof.LibRank4
import proofs.«104061_j38414187495506_2_alg».proof.Proof.LibMatmul
import Idealize.ShloMosaic.Lib.ValueLayout

noncomputable section

namespace Cert.KernelIdeal.Row

open Cert.KernelIdeal Cert.KernelIdeal.Gen Idealize.ShloMosaic Idealize.ShloMosaic.ValueIdx

/-- The flattened row of batch row p, position s and station l. -/
def rowOf (p : Fin 2) (s : Fin 48) (l : Fin 64) : Fin 6144 := ⟨(p.val * 48 + s.val) * 64 + l.val, by omega⟩

/-! ## The stages, as the body computes them -/

/-- The hidden layer of the whole block. -/
def hiddenVec (v0 : FVec Ideal S2x48x64x256 .f32) (v3 : FVec Ideal S256x256 .f32) (v6 : FVec Ideal S1x256 .f32) :
    FVec Ideal S2x48x64x256 .f32 :=
  shapeCast S2x48x64x256
    (maximumf
      (addf
        (FloatOps.matmul dot_S6144x256_S256x256_S6144x256_1_0_0_1_n_n none
          (truncf .bf16 (shapeCast S6144x256 v0 shapeCasts_S2x48x64x256_S6144x256) bitsLt_bf16_f32)
          (truncf .bf16 v3 bitsLt_bf16_f32) (constant (F := Ideal) S6144x256 .f32 0x00000000#32))
        (broadcastTo S6144x256 (shapeCast S1x256 v6 shapeCasts_S1x256_S1x256) broadcasts_S1x256_S6144x256))
      (broadcast S6144x256 (Scalar.ofBits (F := Ideal) .f32 0x00000000#32)))
    shapeCasts_S6144x256_S2x48x64x256

/-- The scores of the whole block, from its hidden layer. -/
def scoreVec (hd : FVec Ideal S2x48x64x256 .f32) (v13 : FVec Ideal S1x256 .f32) (v20 : FVec Ideal S1x1 .f32) :
    FVec Ideal S2x48x64x1 .f32 :=
  maximumf
    (addf
      (shapeCast S2x48x64x1
        (multiReduction .add [3] S2x48x64
          (mulf hd (broadcastTo S2x48x64x256
            (shapeCast S1x1x1x256 (shapeCast S1x256 v13 shapeCasts_S1x256_S1x256) shapeCasts_S1x256_S1x1x1x256)
            broadcasts_S1x1x1x256_S2x48x64x256))
          0x00000000#32 reduces_S2x48x64x256_S2x48x64 (.inl rfl) rfl)
        shapeCasts_S2x48x64_S2x48x64x1)
      (broadcastTo S2x48x64x1
        (shapeCast S1x1x1x1 (shapeCast S1x1 v20 shapeCasts_S1x1_S1x1) shapeCasts_S1x1_S1x1x1x1)
        broadcasts_S1x1x1x1_S2x48x64x1))
    (broadcast S2x48x64x1 (Scalar.ofBits (F := Ideal) .f32 0x00000000#32))

/-- The logits of the whole block: the scores times the reciprocal distances. -/
def logitVec (sc : FVec Ideal S2x48x64x1 .f32) (v27 : FVec Ideal S2x64x1 .f32) : FVec Ideal S2x48x64x1 .f32 :=
  mulf sc (broadcastTo S2x48x64x1
    (shapeCast S2x1x64x1 (shapeCast S2x64x1 v27 shapeCasts_S2x64x1_S2x64x1) shapeCasts_S2x64x1_S2x1x64x1)
    broadcasts_S2x1x64x1_S2x48x64x1)

/-- The shifted exponentials of the whole block. -/
def shiftedVec (z : FVec Ideal S2x48x64x1 .f32) : FVec Ideal S2x48x64x1 .f32 :=
  exp (subf z (broadcastTo S2x48x64x1
    (shapeCast S2x48x1x1
      (multiReduction .maximumf [2] S2x48x1 z 0xFF800000#32 reduces_S2x48x64x1_S2x48x1 (.inl rfl) rfl)
      shapeCasts_S2x48x1_S2x48x1x1)
    broadcasts_S2x48x1x1_S2x48x64x1))

/-- The sums of the shifted exponentials along the station axis. -/
def totalVec (e : FVec Ideal S2x48x64x1 .f32) : FVec Ideal S2x48x1 .f32 :=
  multiReduction .add [2] S2x48x1 e 0x00000000#32 reduces_S2x48x64x1_S2x48x1 (.inl rfl) rfl

/-- The shifted exponentials and their totals, as the body computes them, are these stages composed. -/
theorem pay2_eq (v0 : Vec Ideal S2x48x64x256 .f32) (v3 : Vec Ideal S256x256 .f32) (v6 v13 : Vec Ideal S1x256 .f32)
    (v20 : Vec Ideal S1x1 .f32) (v27 : Vec Ideal S2x64x1 .f32) :
    k0_pay2 v0 v3 v6 v13 v20 v27 = shiftedVec (logitVec (scoreVec (hiddenVec v0 v3 v6) v13 v20) v27) := rfl

theorem pay3_eq (v0 : Vec Ideal S2x48x64x256 .f32) (v3 : Vec Ideal S256x256 .f32) (v6 v13 : Vec Ideal S1x256 .f32)
    (v20 : Vec Ideal S1x1 .f32) (v27 : Vec Ideal S2x64x1 .f32) :
    k0_pay3 v0 v3 v6 v13 v20 v27 = totalVec (k0_pay2 v0 v3 v6 v13 v20 v27) := rfl

/-- The stored value: the features times the weights, summed along the station axis. -/
def outVec (v0 : FVec Ideal S2x48x64x256 .f32) (e : FVec Ideal S2x48x64x1 .f32) (tot : FVec Ideal S2x48x1 .f32) :
    FVec Ideal S2x48x256 .f32 :=
  multiReduction .add [2] S2x48x256
    (mulf v0 (broadcastTo S2x48x64x256
      (divf e (broadcastTo S2x48x64x1 (shapeCast S2x48x1x1 tot shapeCasts_S2x48x1_S2x48x1x1) broadcasts_S2x48x1x1_S2x48x64x1))
      broadcasts_S2x48x64x1_S2x48x64x256))
    0x00000000#32 reduces_S2x48x64x256_S2x48x256 (.inl rfl) rfl

theorem pay1_eq (v0 : Vec Ideal S2x48x64x256 .f32) (e : FVec Ideal S2x48x64x1 .f32) (tot : FVec Ideal S2x48x1 .f32) :
    k0_pay1 v0 e tot = outVec v0 e tot := rfl

/-! ## The matrix product's operand indices -/

theorem dot_l0 (i : S6144x256.Idx) (q : dot_S6144x256_S256x256_S6144x256_1_0_0_1_n_n.contr.Idx) :
    (dot_S6144x256_S256x256_S6144x256_1_0_0_1_n_n.lhsIdx i q (0 : Fin 2)).val = (i (0 : Fin 2)).val := by
  unfold DotDims.lhsIdx
  rw [dif_neg (show ¬(0 : Fin S6144x256.rank) ∈ dot_S6144x256_S256x256_S6144x256_1_0_0_1_n_n.lhsBatch by decide),
    dif_pos (show (0 : Fin S6144x256.rank) ∈ dot_S6144x256_S256x256_S6144x256_1_0_0_1_n_n.lhsNonContracting by decide)]
  rfl

theorem dot_l1 (i : S6144x256.Idx) (q : dot_S6144x256_S256x256_S6144x256_1_0_0_1_n_n.contr.Idx) :
    (dot_S6144x256_S256x256_S6144x256_1_0_0_1_n_n.lhsIdx i q (1 : Fin 2)).val = (q ⟨0, by decide⟩).val :=
  dot_S6144x256_S256x256_S6144x256_1_0_0_1_n_n.lhsIdx_val_of_single rfl i q

theorem dot_r0 (i : S6144x256.Idx) (q : dot_S6144x256_S256x256_S6144x256_1_0_0_1_n_n.contr.Idx) :
    (dot_S6144x256_S256x256_S6144x256_1_0_0_1_n_n.rhsIdx i q (0 : Fin 2)).val = (q ⟨0, by decide⟩).val :=
  dot_S6144x256_S256x256_S6144x256_1_0_0_1_n_n.rhsIdx_val_of_single rfl i q

theorem dot_r1 (i : S6144x256.Idx) (q : dot_S6144x256_S256x256_S6144x256_1_0_0_1_n_n.contr.Idx) :
    (dot_S6144x256_S256x256_S6144x256_1_0_0_1_n_n.rhsIdx i q (1 : Fin 2)).val = (i (1 : Fin 2)).val := by
  unfold DotDims.rhsIdx
  rw [dif_neg (show ¬(1 : Fin S256x256.rank) ∈ dot_S6144x256_S256x256_S6144x256_1_0_0_1_n_n.rhsBatch by decide),
    dif_pos (show (1 : Fin S256x256.rank) ∈ dot_S6144x256_S256x256_S6144x256_1_0_0_1_n_n.rhsNonContracting by decide)]
  rfl

/-! ## Each stage at one entry -/

/-- The hidden layer at (p, s, l, f): the features of (p, s, l) against column f of the first layer, the bias, the ReLU. -/
theorem hiddenVec_apply (v0 : FVec Ideal S2x48x64x256 .f32) (v3 : FVec Ideal S256x256 .f32) (v6 : FVec Ideal S1x256 .f32)
    (p : Fin 2) (s : Fin 48) (l : Fin 64) (f : Fin 256) :
    hiddenVec v0 v3 v6 (ix4 p s l f)
      = Attend.hidden (fun l k => v0 (ix4 p s l k)) (fun k f => v3 (ix2 k f)) (fun f => v6 (ix2 (0 : Fin 1) f)) l f := by
  unfold hiddenVec Attend.hidden
  rw [LibRank4.shapeCast_nd_abcd_apply _ _ p s l f (rowOf p s l) rfl]
  rw [maximumf_apply, addf_apply, broadcast_apply,
    LibMatmul.matmul_zero_ix2 dot_S6144x256_S256x256_S6144x256_1_0_0_1_n_n rfl rfl dot_l0 dot_l1 dot_r0 dot_r1,
    broadcastTo_1b_ab_apply, shapeCast_self]
  refine congrArg₂ max (congrArg (· + v6 (ix2 (0 : Fin 1) f)) (Finset.sum_congr rfl fun k _ => ?_)) Ideal.ofBits_zero_f32
  rw [truncf_apply, truncf_apply, LibRank4.shapeCast_abcd_nd_apply _ _ p s l k (rowOf p s l) rfl]

/-- The score at (p, s, l): the hidden row of (p, s, l) against the second layer, the bias, the ReLU. -/
theorem scoreVec_apply (hd : FVec Ideal S2x48x64x256 .f32) (v13 : FVec Ideal S1x256 .f32) (v20 : FVec Ideal S1x1 .f32)
    (p : Fin 2) (s : Fin 48) (l : Fin 64) (u : Fin 1) :
    scoreVec hd v13 v20 (ix4 p s l u)
      = max ((∑ f : Fin 256, hd (ix4 p s l f) * v13 (ix2 (0 : Fin 1) f)) + v20 (ix2 (0 : Fin 1) u)) 0 := by
  unfold scoreVec
  rw [maximumf_apply, addf_apply, broadcast_apply, LibRank4.shapeCast_abc_abc1_apply, LibRank4.multiReduction_add_last,
    LibRank4.broadcastTo_111d_abcd_apply, LibRank4.shapeCast_1d_111d_apply, shapeCast_self, shapeCast_self]
  refine congrArg₂ max (congrArg (· + v20 (ix2 (0 : Fin 1) u)) (Finset.sum_congr rfl fun f _ => ?_)) Ideal.ofBits_zero_f32
  rw [mulf_apply, LibRank4.broadcastTo_111d_abcd_apply, LibRank4.shapeCast_1d_111d_apply]

/-- The logit at (p, s, l): the score times row p's reciprocal distance of station l. -/
theorem logitVec_apply (sc : FVec Ideal S2x48x64x1 .f32) (v27 : FVec Ideal S2x64x1 .f32)
    (p : Fin 2) (s : Fin 48) (l : Fin 64) (u : Fin 1) :
    logitVec sc v27 (ix4 p s l u) = sc (ix4 p s l u) * v27 (ix3 p l (0 : Fin 1)) := by
  unfold logitVec
  rw [mulf_apply, LibRank4.broadcastTo_a1c1_abc1_apply, LibRank4.shapeCast_ac1_a1c1_apply, shapeCast_self]

/-- The shifted exponential at (p, s, l): the logit less the largest logit of (p, s), exponentiated. -/
theorem shiftedVec_apply (z : FVec Ideal S2x48x64x1 .f32) (p : Fin 2) (s : Fin 48) (l : Fin 64) :
    shiftedVec z (ix4 p s l (0 : Fin 1)) = Attend.shifted (fun l' => z (ix4 p s l' (0 : Fin 1))) l := by
  unfold shiftedVec Attend.shifted Attend.peak
  show Ideal.exp (z (ix4 p s l (0 : Fin 1)) - broadcastTo S2x48x64x1
    (shapeCast S2x48x1x1 (multiReduction .maximumf [2] S2x48x1 z 0xFF800000#32 reduces_S2x48x64x1_S2x48x1 (.inl rfl) rfl)
      shapeCasts_S2x48x1_S2x48x1x1) broadcasts_S2x48x1x1_S2x48x64x1 (ix4 p s l (0 : Fin 1))) = _
  rw [LibRank4.broadcastTo_ab11_abc1_apply, LibRank4.shapeCast_ab1_ab11_apply, LibRank4.multiReduction_max_third]

/-- The total at (p, s): the sum over the stations. -/
theorem totalVec_apply (e : FVec Ideal S2x48x64x1 .f32) (p : Fin 2) (s : Fin 48) (u : Fin 1) :
    totalVec e (ix3 p s u) = ∑ l : Fin 64, e (ix4 p s l u) :=
  LibRank4.multiReduction_add_third e _ _ _ p s u

/-- The stored value at (p, s, g): the features of (p, s) at g times each station's quotient, summed over the stations. -/
theorem outVec_apply (v0 : FVec Ideal S2x48x64x256 .f32) (e : FVec Ideal S2x48x64x1 .f32) (tot : FVec Ideal S2x48x1 .f32)
    (p : Fin 2) (s : Fin 48) (g : Fin 256) :
    outVec v0 e tot (ix3 p s g)
      = ∑ l : Fin 64, v0 (ix4 p s l g) * Ideal.div (e (ix4 p s l (0 : Fin 1))) (tot (ix3 p s (0 : Fin 1))) := by
  unfold outVec
  rw [LibRank4.multiReduction_add_third]
  refine Finset.sum_congr rfl fun l _ => ?_
  rw [mulf_apply, LibRank4.broadcastTo_abc1_abcd_apply, divf_apply, LibRank4.broadcastTo_ab11_abc1_apply,
    LibRank4.shapeCast_ab1_ab11_apply]

/-! ## The stages composed -/

/-- The softmax weight of station l from any logits whose (p, s) row is zf. -/
theorem weight_of (Z : FVec Ideal S2x48x64x1 .f32) (zf : Fin 64 → EReal) (p : Fin 2) (s : Fin 48)
    (hz : ∀ l, Z (ix4 p s l (0 : Fin 1)) = zf l) (l : Fin 64) :
    Ideal.div (shiftedVec Z (ix4 p s l (0 : Fin 1))) (totalVec (shiftedVec Z) (ix3 p s (0 : Fin 1))) = Attend.weight zf l := by
  have e : (fun l' => Z (ix4 p s l' (0 : Fin 1))) = zf := funext hz
  rw [totalVec_apply]
  simp only [shiftedVec_apply, e]
  rfl

/-- The body's logits at (p, s, l) are the specification's. -/
theorem logit_eq (v0 : FVec Ideal S2x48x64x256 .f32) (v3 : FVec Ideal S256x256 .f32) (v6 v13 : FVec Ideal S1x256 .f32)
    (v20 : FVec Ideal S1x1 .f32) (v27 : FVec Ideal S2x64x1 .f32) (p : Fin 2) (s : Fin 48) (l : Fin 64) :
    logitVec (scoreVec (hiddenVec v0 v3 v6) v13 v20) v27 (ix4 p s l (0 : Fin 1))
      = Attend.logit (fun l k => v0 (ix4 p s l k)) (fun k f => v3 (ix2 k f)) (fun f => v6 (ix2 (0 : Fin 1) f))
          (fun f => v13 (ix2 (0 : Fin 1) f)) (v20 (ix2 (0 : Fin 1) (0 : Fin 1))) (fun l => v27 (ix3 p l (0 : Fin 1))) l := by
  rw [logitVec_apply, scoreVec_apply]
  unfold Attend.logit Attend.score
  simp only [hiddenVec_apply]

/-- THE BODY'S VALUE at (p, s, g): the attention row of the loaded blocks. -/
theorem pay_row (v0 : Vec Ideal S2x48x64x256 .f32) (v3 : Vec Ideal S256x256 .f32) (v6 v13 : Vec Ideal S1x256 .f32)
    (v20 : Vec Ideal S1x1 .f32) (v27 : Vec Ideal S2x64x1 .f32) (p : Fin 2) (s : Fin 48) (g : Fin 256) :
    k0_pay1 v0 (k0_pay2 v0 v3 v6 v13 v20 v27) (k0_pay3 v0 v3 v6 v13 v20 v27) (ix3 p s g)
      = Attend.attend (fun l k => v0 (ix4 p s l k)) (fun k f => v3 (ix2 k f)) (fun f => v6 (ix2 (0 : Fin 1) f))
          (fun f => v13 (ix2 (0 : Fin 1) f)) (v20 (ix2 (0 : Fin 1) (0 : Fin 1))) (fun l => v27 (ix3 p l (0 : Fin 1))) g := by
  rw [pay3_eq, pay2_eq, pay1_eq, outVec_apply]
  unfold Attend.attend
  exact Finset.sum_congr rfl fun l _ => congrArg (v0 (ix4 p s l g) * ·)
    (weight_of _ _ p s (fun l' => logit_eq v0 v3 v6 v13 v20 v27 p s l') l)

/-- The same at an entry y of the stored block set beside an entry i of the whole result: if the loaded blocks are the
    argument arrays' entries that i's batch row and position name (the features and the reciprocal distances of i's
    batch row, the weights and biases whole), the stored value at y is the whole result at i. -/
theorem block_entry (x0 : Vec Ideal S2x48x64x256 .f32) (x1 : Vec Ideal S256x256 .f32) (x2 x3 : Vec Ideal S1x256 .f32)
    (x4 : Vec Ideal S1x1 .f32) (x5 : Vec Ideal S2x64x1 .f32)
    (A0 : S32x48x64x256.Idx → EReal) (A3 : S256x256.Idx → EReal) (A4 : S256.Idx → EReal) (A5 : S256x1.Idx → EReal)
    (A6 : S1.Idx → EReal) (D : S32x64.Idx → EReal) (y : S2x48x256.Idx) (i : S32x48x256.Idx)
    (h0 : ∀ (l : Fin 64) (k : Fin 256), x0 (ix4 (y 0) (y 1) l k) = A0 (ix4 (i 0) (i 1) l k))
    (h1 : ∀ (k f : Fin 256), x1 (ix2 k f) = A3 (ix2 k f))
    (h2 : ∀ f : Fin 256, x2 (ix2 (0 : Fin 1) f) = A4 (ix1 f))
    (h3 : ∀ f : Fin 256, x3 (ix2 (0 : Fin 1) f) = A5 (ix2 f (0 : Fin 1)))
    (h4 : x4 (ix2 (0 : Fin 1) (0 : Fin 1)) = A6 (ix1 (0 : Fin 1)))
    (h5 : ∀ l : Fin 64, x5 (ix3 (y 0) l (0 : Fin 1)) = D (ix2 (i 0) l))
    (hg : (y 2).val = (i 2).val) :
    k0_pay1 x0 (k0_pay2 x0 x1 x2 x3 x4 x5) (k0_pay3 x0 x1 x2 x3 x4 x5) y = Attend.whole A0 A3 A4 A5 A6 D i := by
  obtain ⟨p, s, g, rfl⟩ : ∃ (p : Fin 2) (s : Fin 48) (g : Fin 256), y = ix3 p s g := ⟨y 0, y 1, y 2, eq_ix3 y⟩
  obtain ⟨b, s', g', rfl⟩ : ∃ (b : Fin 32) (s' : Fin 48) (g' : Fin 256), i = ix3 b s' g' := ⟨i 0, i 1, i 2, eq_ix3 i⟩
  have h0' : ∀ (l : Fin 64) (k : Fin 256), x0 (ix4 p s l k) = A0 (ix4 b s' l k) := h0
  have h5' : ∀ l : Fin 64, x5 (ix3 p l (0 : Fin 1)) = D (ix2 b l) := h5
  have hg' : g = g' := Fin.ext hg
  subst hg'
  rw [pay_row]
  show _ = Attend.wholeAt A0 A3 A4 A5 A6 D b s' g
  unfold Attend.wholeAt
  simp only [h0', h1, h2, h3, h4, h5']

end Cert.KernelIdeal.Row

end
-- ==== Proof.KernelArray.lean ====
/-
  From the blocks to the whole array.

  The grid has sixteen points; point t stages batch rows 2t and 2t + 1 of the features and of the reciprocal
  distances, the two layers' weights and biases whole, and writes back rows 2t and 2t + 1 of the result. The biases
  and the second layer reach the kernel as rows ([256] and [256, 1] reshaped to [1, 256], [1] to [1, 1]) and the
  reciprocal distances as a column per batch row ([32, 64] reshaped to [32, 64, 1]); the reshapes are host
  operations before the launch. Each written block is the whole-array specification restricted to the block, and
  the sixteen blocks cover the result, so the result array after the run is the specification.
-/
import proofs.«104061_j38414187495506_2_alg».proof.Proof.Gen.KernelIdeal.Value
import proofs.«104061_j38414187495506_2_alg».proof.Proof.KernelRow
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the host writes before the launch -/

/-- The reciprocal Euclidean distance of each station (second axis) from each batch row's target: the host's
    operations on the stations' and the targets' locations, kept as one function and never opened. -/
def recipDist (x1 : FVec Ideal S32x64x2 .f32) (x2 : FVec Ideal S32x2 .f32) : FVec Ideal S32x64 .f32 :=
  Host.divf (broadcastInDim S32x64 ![] bcast_S_S32x64 (constant (F := Ideal) S_ .f32 0x3F800000#32))
    (Host.sqrt (Host.reduceAdd
      (mulf
        (subf x1 (broadcastInDim S32x64x2 ![0, 1, 2] bcast_S32x1x2_S32x64x2_0_1_2
          (broadcastInDim S32x1x2 ![0, 2] bcast_S32x2_S32x1x2_0_2 x2)))
        (subf x1 (broadcastInDim S32x64x2 ![0, 1, 2] bcast_S32x1x2_S32x64x2_0_1_2
          (broadcastInDim S32x1x2 ![0, 2] bcast_S32x2_S32x1x2_0_2 x2))))
      (constant (F := Ideal) S_ .f32 0x00000000#32) reducesTo_S32x64x2_S32x64_d2 h_S_))

/-- The first bias as the region finds it: the argument as one row. -/
theorem V_bias1 (c : Dev nD) :
    (V m c main_v8 : S1x256.Idx → EReal) = shapeCast S1x256 (m ((c : Thread nD τ).loc main_arg4)) shapeCasts_S256_S1x256 := by
  dsimp only [Gen.V, Gen.hostOps0]; after_results; rfl

/-- The second bias as the region finds it: the argument as a one by one matrix. -/
theorem V_bias2 (c : Dev nD) :
    (V m c main_v9 : S1x1.Idx → EReal) = shapeCast S1x1 (m ((c : Thread nD τ).loc main_arg6)) shapeCasts_S1_S1x1 := by
  dsimp only [Gen.V, Gen.hostOps0]; after_results; rfl

/-- The second layer as the region finds it: the argument's one column as a row. -/
theorem V_layer2 (c : Dev nD) :
    (V m c main_v10 : S1x256.Idx → EReal) = shapeCast S1x256 (m ((c : Thread nD τ).loc main_arg5)) shapeCasts_S256x1_S1x256 := by
  dsimp only [Gen.V, Gen.hostOps0]; after_results; rfl

/-- The reciprocal distances as the region finds them: a column per batch row. -/
theorem V_recip (c : Dev nD) :
    (V m c main_v11 : S32x64x1.Idx → EReal)
      = shapeCast S32x64x1 (recipDist (m ((c : Thread nD τ).loc main_arg1)) (m ((c : Thread nD τ).loc main_arg2)))
          shapeCasts_S32x64_S32x64x1 := by
  dsimp only [Gen.V, Gen.hostOps0]; after_results; rfl

/-! ## The printed index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Point t's block index is t along the batch axis of the features, of the reciprocal distances and of the result, and
    zero along every other axis of every window. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- Every pair of batch rows is some point's. -/
theorem idx_onto : ∀ q : Fin 16, ∃ t : Fin cfg0.N, win0_6.index t (0 : Fin 3) = q.val :=
  (by decide +kernel : ∀ q : Fin 16, ∃ t : Fin grid0.N, win0_6.index t (0 : Fin 3) = q.val)

/-! ## What point t writes back -/

/-- WHAT POINT t WRITES BACK is block t of the specification of the argument arrays. -/
theorem flushed_eq (c : Dev nD) (t : Fin cfg0.N) :
    (dats m 0 c).flushed 6 t = ((cfg0.win 6).blk t).view.read (Elt Ideal)
      (Attend.whole (m ((c : Thread nD τ).loc main_arg0)) (m ((c : Thread nD τ).loc main_arg3))
        (m ((c : Thread nD τ).loc main_arg4)) (m ((c : Thread nD τ).loc main_arg5)) (m ((c : Thread nD τ).loc main_arg6))
        (recipDist (m ((c : Thread nD τ).loc main_arg1)) (m ((c : Thread nD τ).loc main_arg2)))) := by
  rw [Value.flushed6]
  unfold out0_6
  rw [View.canon_unit_zero hz3]
  simp only [View.ld_unit_zero (S := S2x48x64x256) hz4, View.ld_unit_zero (S := S256x256) hz2,
    View.ld_unit_zero (S := S1x256) hz2, View.ld_unit_zero (S := S1x1) hz2, View.ld_unit_zero (S := S2x64x1) hz3]
  obtain ⟨e00, e01, e02, e03, e10, e11, e20, e21, e30, e31, e40, e41, e50, e51, e52, e60, e61, e62⟩ := idx_facts t
  refine funext fun (y : S2x48x256.Idx) => ?_
  have hy0 : (y 0).val < 2 := (y 0).isLt
  have hy1 : (y 1).val < 48 := (y 1).isLt
  have hy2 : (y 2).val < 256 := (y 2).isLt
  refine Row.block_entry (iblk m c 0 t) (iblk m c 1 t) (iblk m c 2 t) (iblk m c 3 t) (iblk m c 4 t) (iblk m c 5 t)
    _ _ _ _ _ _ y (((cfg0.win 6).blk t).view.emb y) ?_ ?_ ?_ ?_ ?_ ?_ ?_
  · -- the features: batch rows 2t, 2t + 1
    intro l k
    show V m c main_arg0 (((cfg0.win 0).blk t).view.emb (ix4 (y 0) (y 1) l k)) = _
    rw [V_main_arg0]
    refine congrArg (m ((c : Thread nD τ).loc main_arg0)) (funext fun a => Fin.ext ?_)
    match a with
    | ⟨0, _⟩ => show win0_0.index t (0 : Fin 4) * 2 + 1 * (y 0).val = win0_6.index t (0 : Fin 3) * 2 + 1 * (y 0).val; omega
    | ⟨1, _⟩ => show win0_0.index t (1 : Fin 4) * 48 + 1 * (y 1).val = win0_6.index t (1 : Fin 3) * 48 + 1 * (y 1).val; omega
    | ⟨2, _⟩ => show win0_0.index t (2 : Fin 4) * 64 + 1 * l.val = l.val; omega
    | ⟨3, _⟩ => show win0_0.index t (3 : Fin 4) * 256 + 1 * k.val = k.val; omega
  · -- the first layer, whole
    intro k f
    show V m c main_arg3 (((cfg0.win 1).blk t).view.emb (ix2 k f)) = _
    rw [V_main_arg3]
    refine congrArg (m ((c : Thread nD τ).loc main_arg3)) (funext fun a => Fin.ext ?_)
    match a with
    | ⟨0, _⟩ => show win0_1.index t (0 : Fin 2) * 256 + 1 * k.val = k.val; omega
    | ⟨1, _⟩ => show win0_1.index t (1 : Fin 2) * 256 + 1 * f.val = f.val; omega
  · -- the first bias, a row
    intro f
    show V m c main_v8 (((cfg0.win 2).blk t).view.emb (ix2 (0 : Fin 1) f)) = _
    have he : ((cfg0.win 2).blk t).view.emb (ix2 (0 : Fin 1) f) = ix2 (0 : Fin 1) f := funext fun a => Fin.ext (by
      match a with
      | ⟨0, _⟩ => show win0_2.index t (0 : Fin 2) * 1 + 1 * 0 = 0; omega
      | ⟨1, _⟩ => show win0_2.index t (1 : Fin 2) * 256 + 1 * f.val = f.val; omega)
    rw [he, V_bias1, shapeCast_a_1a_apply]
  · -- the second layer, a row
    intro f
    show V m c main_v10 (((cfg0.win 3).blk t).view.emb (ix2 (0 : Fin 1) f)) = _
    have he : ((cfg0.win 3).blk t).view.emb (ix2 (0 : Fin 1) f) = ix2 (0 : Fin 1) f := funext fun a => Fin.ext (by
      match a with
      | ⟨0, _⟩ => show win0_3.index t (0 : Fin 2) * 1 + 1 * 0 = 0; omega
      | ⟨1, _⟩ => show win0_3.index t (1 : Fin 2) * 256 + 1 * f.val = f.val; omega)
    rw [he, V_layer2, LibRank4.shapeCast_a1_1a_apply]
  · -- the second bias
    show V m c main_v9 (((cfg0.win 4).blk t).view.emb (ix2 (0 : Fin 1) (0 : Fin 1))) = _
    have he : ((cfg0.win 4).blk t).view.emb (ix2 (0 : Fin 1) (0 : Fin 1)) = ix2 (0 : Fin 1) (0 : Fin 1) := funext fun a => Fin.ext (by
      match a with
      | ⟨0, _⟩ => show win0_4.index t (0 : Fin 2) * 1 + 1 * 0 = 0; omega
      | ⟨1, _⟩ => show win0_4.index t (1 : Fin 2) * 1 + 1 * 0 = 0; omega)
    rw [he, V_bias2, shapeCast_a_1a_apply]
  · -- the reciprocal distances of batch rows 2t, 2t + 1
    intro l
    show V m c main_v11 (((cfg0.win 5).blk t).view.emb (ix3 (y 0) l (0 : Fin 1))) = _
    have he : ((cfg0.win 5).blk t).view.emb (ix3 (y 0) l (0 : Fin 1))
        = ix3 (((cfg0.win 6).blk t).view.emb y 0) l (0 : Fin 1) := funext fun a => Fin.ext (by
      match a with
      | ⟨0, _⟩ => show win0_5.index t (0 : Fin 3) * 2 + 1 * (y 0).val = win0_6.index t (0 : Fin 3) * 2 + 1 * (y 0).val; omega
      | ⟨1, _⟩ => show win0_5.index t (1 : Fin 3) * 64 + 1 * l.val = l.val; omega
      | ⟨2, _⟩ => show win0_5.index t (2 : Fin 3) * 1 + 1 * 0 = 0; omega)
    rw [he, V_recip]
    exact LibRank4.shapeCast_ab_ab1_apply (a := 32) (b := 64) _ _ _ l (0 : Fin 1)
  · -- the feature coordinate is kept
    show (y 2).val = win0_6.index t (2 : Fin 3) * 256 + 1 * (y 2).val
    omega

/-! ## The cover, and the array after the run -/

/-- An index of the result is in point t's block iff each coordinate is in the block's range on its axis. -/
theorem mem_blk (t : Fin cfg0.N) (i : S32x48x256.Idx) :
    i ∈ ((cfg0.win 6).blk t).view.set ↔ ∀ a : Fin 3, win0_6.index t a * S2x48x256.size a ≤ (i a).val
      ∧ (i a).val < win0_6.index t a * S2x48x256.size a + S2x48x256.size a := by
  show i ∈ ((View.whole main_v12).slice (win0_6.rect t)).set ↔ _
  rw [View.set_slice_whole, Rect.mem_set_unit]
  exact Iff.rfl

/-- Every index of the result is in the block of the point that holds its batch row. -/
theorem cover (i : S32x48x256.Idx) : ∃ t : Fin cfg0.N, (cfg0.win 6).flush t = true ∧ i ∈ ((cfg0.win 6).blk t).view.set := by
  have hi0 : (i 0).val < 32 := (i 0).isLt
  have hi1 : (i 1).val < 48 := (i 1).isLt
  have hi2 : (i 2).val < 256 := (i 2).isLt
  obtain ⟨t, ht⟩ := idx_onto ⟨(i 0).val / 2, by omega⟩
  have q0 : win0_6.index t (0 : Fin 3) = (i 0).val / 2 := ht
  obtain ⟨-, -, -, -, -, -, -, -, -, -, -, -, -, -, -, -, e61, e62⟩ := idx_facts t
  refine ⟨t, flush0_6 t, ?_⟩
  rw [mem_blk]
  intro a
  match a with
  | ⟨0, _⟩ => show win0_6.index t (0 : Fin 3) * 2 ≤ (i 0).val ∧ (i 0).val < win0_6.index t (0 : Fin 3) * 2 + 2; omega
  | ⟨1, _⟩ => show win0_6.index t (1 : Fin 3) * 48 ≤ (i 1).val ∧ (i 1).val < win0_6.index t (1 : Fin 3) * 48 + 48; omega
  | ⟨2, _⟩ => show win0_6.index t (2 : Fin 3) * 256 ≤ (i 2).val ∧ (i 2).val < win0_6.index t (2 : Fin 3) * 256 + 256; omega

/-- THE RESULT ARRAY after the run is the specification of the argument arrays. -/
theorem final (c : Dev nD) :
    (dats m 0 c).arrAt 6 cfg0.N
      = Attend.whole (m ((c : Thread nD τ).loc main_arg0)) (m ((c : Thread nD τ).loc main_arg3))
          (m ((c : Thread nD τ).loc main_arg4)) (m ((c : Thread nD τ).loc main_arg5)) (m ((c : Thread nD τ).loc main_arg6))
          (recipDist (m ((c : Thread nD τ).loc main_arg1)) (m ((c : Thread nD τ).loc main_arg2))) :=
  (dats m 0 c).arrAt_eq_of_cover 6 _ (fun t _ => flushed_eq m c t) cover

/-- The kernel's run: every weakly fair execution terminates with the result array at the specification and the
    arguments unchanged. -/
theorem run : θ_run defs (onTc (τ := τ) (main (F := Ideal))) ⟨m, fun _ => 0, ρ⟩ fun r => ∀ c : Dev nD,
      r.2.mem ((c : Thread nD τ).loc main_v12)
        = Attend.whole (m ((c : Thread nD τ).loc main_arg0)) (m ((c : Thread nD τ).loc main_arg3))
            (m ((c : Thread nD τ).loc main_arg4)) (m ((c : Thread nD τ).loc main_arg5)) (m ((c : Thread nD τ).loc main_arg6))
            (recipDist (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefRow.lean ====
/-
  The reference at one entry.

  The reference contracts the features with the first layer, adds the bias and applies the ReLU; contracts the
  hidden layer with the second layer's one column, adds the bias and applies the ReLU; multiplies by the reciprocal
  distances spread over the positions; takes the library softmax along the station axis (the largest logit, taken
  once more against minus infinity, is subtracted before the exponential; the exponentials are divided by their
  sum); multiplies the features by the weights and sums along the station axis. Read at the entry (b, s, g) one
  operation after another, this is the attention row of the features at (b, s), with batch row b's reciprocal
  distances. The reciprocal distances stay the host's own term of the locations, unopened.
-/
import proofs.«104061_j38414187495506_2_alg».proof.Proof.Gen.ReferenceIdeal.Read
import proofs.«104061_j38414187495506_2_alg».proof.Proof.Attend
import proofs.«104061_j38414187495506_2_alg».proof.Proof.LibRank4

noncomputable section

namespace Cert.ReferenceIdeal.RefRow

open Cert.ReferenceIdeal Cert.ReferenceIdeal.Gen Cert.ReferenceIdeal.Read Idealize.ShloMosaic Idealize.ShloMosaic.ValueIdx

/-! ## The operations' operand indices, by coordinates -/

theorem lidx0 (b : Fin 32) (s : Fin 48) (l : Fin 64) (f k : Fin 256) : lidx_main_v0 (ix4 b s l f) k = ix4 b s l k := funext fun a => Fin.ext (by match a with | ⟨0, _⟩ => rfl | ⟨1, _⟩ => rfl | ⟨2, _⟩ => rfl | ⟨3, _⟩ => rfl)
theorem ridx0 (b : Fin 32) (s : Fin 48) (l : Fin 64) (f k : Fin 256) : ridx_main_v0 (ix4 b s l f) k = ix2 k f := funext fun a => Fin.ext (by match a with | ⟨0, _⟩ => rfl | ⟨1, _⟩ => rfl)
theorem idx2 (b : Fin 32) (s : Fin 48) (l : Fin 64) (f : Fin 256) :
    idx_main_v2 (ix4 b s l f) = ix4 (0 : Fin 1) (0 : Fin 1) (0 : Fin 1) f := funext fun a => Fin.ext (by match a with | ⟨0, _⟩ => rfl | ⟨1, _⟩ => rfl | ⟨2, _⟩ => rfl | ⟨3, _⟩ => rfl)
theorem idx1 (u0 u1 u2 : Fin 1) (f : Fin 256) : idx_main_v1 (ix4 u0 u1 u2 f) = ix1 f := funext fun a => Fin.ext (by match a with | ⟨0, _⟩ => rfl)
theorem lidx5 (b : Fin 32) (s : Fin 48) (l : Fin 64) (u : Fin 1) (k : Fin 256) : lidx_main_v5 (ix4 b s l u) k = ix4 b s l k := funext fun a => Fin.ext (by match a with | ⟨0, _⟩ => rfl | ⟨1, _⟩ => rfl | ⟨2, _⟩ => rfl | ⟨3, _⟩ => rfl)
theorem ridx5 (b : Fin 32) (s : Fin 48) (l : Fin 64) (u : Fin 1) (k : Fin 256) : ridx_main_v5 (ix4 b s l u) k = ix2 k u := funext fun a => Fin.ext (by match a with | ⟨0, _⟩ => rfl | ⟨1, _⟩ => rfl)
theorem idx7 (b : Fin 32) (s : Fin 48) (l : Fin 64) (u : Fin 1) :
    idx_main_v7 (ix4 b s l u) = ix4 (0 : Fin 1) (0 : Fin 1) (0 : Fin 1) (0 : Fin 1) := funext fun a => Fin.ext (by match a with | ⟨0, _⟩ => rfl | ⟨1, _⟩ => rfl | ⟨2, _⟩ => rfl | ⟨3, _⟩ => rfl)
theorem idx6 (i : S1x1x1x1.Idx) : idx_main_v6 i = ix1 (0 : Fin 1) := funext fun a => Fin.ext (by match a with | ⟨0, _⟩ => rfl)
theorem idx19 (b : Fin 32) (s : Fin 48) (l : Fin 64) (u : Fin 1) :
    idx_main_v19 (ix4 b s l u) = ix4 b (0 : Fin 1) l (0 : Fin 1) := funext fun a => Fin.ext (by match a with | ⟨0, _⟩ => rfl | ⟨1, _⟩ => rfl | ⟨2, _⟩ => rfl | ⟨3, _⟩ => rfl)
theorem idx18 (b : Fin 32) (u : Fin 1) (l : Fin 64) (v : Fin 1) : idx_main_v18 (ix4 b u l v) = ix2 b l := funext fun a => Fin.ext (by match a with | ⟨0, _⟩ => rfl | ⟨1, _⟩ => rfl)
theorem idx25 (b : Fin 32) (s : Fin 48) (l : Fin 64) (u : Fin 1) :
    idx_main_v25 (ix4 b s l u) = ix4 b s (0 : Fin 1) (0 : Fin 1) := funext fun a => Fin.ext (by match a with | ⟨0, _⟩ => rfl | ⟨1, _⟩ => rfl | ⟨2, _⟩ => rfl | ⟨3, _⟩ => rfl)
theorem idx24 (b : Fin 32) (s : Fin 48) (u v : Fin 1) : idx_main_v24 (ix4 b s u v) = ix3 b s (0 : Fin 1) := funext fun a => Fin.ext (by match a with | ⟨0, _⟩ => rfl | ⟨1, _⟩ => rfl | ⟨2, _⟩ => rfl)
theorem idx28 (b : Fin 32) (s : Fin 48) (u : Fin 1) (k : Fin 64) : idx_main_v28 (ix3 b s u) k = ix4 b s k u := funext fun a => Fin.ext (by match a with | ⟨0, _⟩ => rfl | ⟨1, _⟩ => rfl | ⟨2, _⟩ => rfl | ⟨3, _⟩ => rfl)
theorem idx30 (b : Fin 32) (s : Fin 48) (l : Fin 64) (u : Fin 1) :
    idx_main_v30 (ix4 b s l u) = ix4 b s (0 : Fin 1) (0 : Fin 1) := funext fun a => Fin.ext (by match a with | ⟨0, _⟩ => rfl | ⟨1, _⟩ => rfl | ⟨2, _⟩ => rfl | ⟨3, _⟩ => rfl)
theorem idx29 (b : Fin 32) (s : Fin 48) (u v : Fin 1) : idx_main_v29 (ix4 b s u v) = ix3 b s (0 : Fin 1) := funext fun a => Fin.ext (by match a with | ⟨0, _⟩ => rfl | ⟨1, _⟩ => rfl | ⟨2, _⟩ => rfl)
theorem idx32 (b : Fin 32) (s : Fin 48) (l : Fin 64) (g : Fin 256) : idx_main_v32 (ix4 b s l g) = ix4 b s l (0 : Fin 1) := funext fun a => Fin.ext (by match a with | ⟨0, _⟩ => rfl | ⟨1, _⟩ => rfl | ⟨2, _⟩ => rfl | ⟨3, _⟩ => rfl)
theorem idx34 (b : Fin 32) (s : Fin 48) (g : Fin 256) (k : Fin 64) : idx_main_v34 (ix3 b s g) k = ix4 b s k g := funext fun a => Fin.ext (by match a with | ⟨0, _⟩ => rfl | ⟨1, _⟩ => rfl | ⟨2, _⟩ => rfl | ⟨3, _⟩ => rfl)

variable (x0 : (⟨S32x48x64x256, .f32⟩ : BufTy).Contents (Elt Ideal)) (x1 : (⟨S32x64x2, .f32⟩ : BufTy).Contents (Elt Ideal)) (x2 : (⟨S32x2, .f32⟩ : BufTy).Contents (Elt Ideal))
  (x3 : (⟨S256x256, .f32⟩ : BufTy).Contents (Elt Ideal)) (x4 : (⟨S256, .f32⟩ : BufTy).Contents (Elt Ideal)) (x5 : (⟨S256x1, .f32⟩ : BufTy).Contents (Elt Ideal)) (x6 : (⟨S1, .f32⟩ : BufTy).Contents (Elt Ideal))

/-! ## The stages -/

/-- The hidden layer at (b, s, l, f). -/
theorem hidden_eq (b : Fin 32) (s : Fin 48) (l : Fin 64) (f : Fin 256) :
    val_main_v4 (F := Ideal) x0 x3 x4 (ix4 b s l f)
      = Attend.hidden (fun l k => x0 (ix4 b s l k)) (fun k f => x3 (ix2 k f)) (fun f => x4 (ix1 f)) l f := by
  rw [val_main_v4_apply, val_main_v3_apply, val_main_v0_apply, val_main_v2_apply, val_main_v1_apply,
    val_main_call0_v0_apply, val_main_call0_cst_apply]
  simp only [lidx0, ridx0, idx2, idx1]
  unfold Attend.hidden
  exact congrArg (max _) Ideal.ofBits_zero_f32

/-- The score at (b, s, l). -/
theorem score_eq (b : Fin 32) (s : Fin 48) (l : Fin 64) :
    val_main_v9 (F := Ideal) x0 x3 x4 x5 x6 (ix4 b s l (0 : Fin 1))
      = Attend.score (fun l k => x0 (ix4 b s l k)) (fun k f => x3 (ix2 k f)) (fun f => x4 (ix1 f))
          (fun f => x5 (ix2 f (0 : Fin 1))) (x6 (ix1 (0 : Fin 1))) l := by
  rw [val_main_v9_apply, val_main_v8_apply, val_main_v5_apply, val_main_v7_apply, val_main_v6_apply,
    val_main_call1_v0_apply, val_main_call1_cst_apply]
  simp only [lidx5, ridx5, idx6, hidden_eq]
  unfold Attend.score
  exact congrArg (max _) Ideal.ofBits_zero_f32

/-- The logit at (b, s, l): the score times batch row b's reciprocal distance of station l. -/
theorem logit_eq (b : Fin 32) (s : Fin 48) (l : Fin 64) :
    val_main_v20 (F := Ideal) x0 x1 x2 x3 x4 x5 x6 (ix4 b s l (0 : Fin 1))
      = Attend.logit (fun l k => x0 (ix4 b s l k)) (fun k f => x3 (ix2 k f)) (fun f => x4 (ix1 f))
          (fun f => x5 (ix2 f (0 : Fin 1))) (x6 (ix1 (0 : Fin 1))) (fun l => val_main_v17 (F := Ideal) x1 x2 (ix2 b l)) l := by
  rw [val_main_v20_apply, val_main_v19_apply, val_main_v18_apply, score_eq]
  simp only [idx19, idx18]
  rfl

/-- The largest logit of (b, s): the host's fold along the station axis, taken once more against minus infinity. -/
theorem peak_eq (b : Fin 32) (s : Fin 48) :
    val_main_v23 (F := Ideal) x0 x1 x2 x3 x4 x5 x6 (ix3 b s (0 : Fin 1))
      = Attend.peak (fun l => val_main_v20 (F := Ideal) x0 x1 x2 x3 x4 x5 x6 (ix4 b s l (0 : Fin 1))) := by
  rw [val_main_v23_apply, val_main_v22_apply, val_main_cst_2_apply]
  unfold val_main_v21
  rw [LibRank4.hostReduce_third FloatOps.maximumf _ _ reducesTo_S32x48x64x1_S32x48x1_d2 (by decide) h_S_ b s (0 : Fin 1)]
  exact Attend.max_negInf _

/-- The shifted exponential at (b, s, l). -/
theorem shifted_eq (b : Fin 32) (s : Fin 48) (l : Fin 64) :
    val_main_v27 (F := Ideal) x0 x1 x2 x3 x4 x5 x6 (ix4 b s l (0 : Fin 1))
      = Attend.shifted (fun l => val_main_v20 (F := Ideal) x0 x1 x2 x3 x4 x5 x6 (ix4 b s l (0 : Fin 1))) l := by
  rw [val_main_v27_apply, val_main_v26_apply, val_main_v25_apply, val_main_v24_apply]
  simp only [idx25, idx24]
  rw [peak_eq]
  rfl

/-- The softmax weight at (b, s, l). -/
theorem weight_eq (b : Fin 32) (s : Fin 48) (l : Fin 64) :
    val_main_v31 (F := Ideal) x0 x1 x2 x3 x4 x5 x6 (ix4 b s l (0 : Fin 1))
      = Attend.weight (fun l => val_main_v20 (F := Ideal) x0 x1 x2 x3 x4 x5 x6 (ix4 b s l (0 : Fin 1))) l := by
  rw [val_main_v31_apply, val_main_v30_apply, val_main_v29_apply]
  simp only [idx30, idx29]
  rw [val_main_v28_apply, val_main_cst_3_apply]
  simp only [idx28, shifted_eq]
  unfold Attend.weight
  show Ideal.div _ (Ideal.ofBits .f32 0x00000000#32 + _) = _
  rw [Ideal.ofBits_zero_f32, zero_add]

/-- THE REFERENCE'S VALUE at (b, s, g). -/
theorem result_at (b : Fin 32) (s : Fin 48) (g : Fin 256) :
    val_main_v34 (F := Ideal) x0 x1 x2 x3 x4 x5 x6 (ix3 b s g)
      = Attend.wholeAt x0 x3 x4 x5 x6 (val_main_v17 (F := Ideal) x1 x2) b s g := by
  have hz : (fun l => val_main_v20 (F := Ideal) x0 x1 x2 x3 x4 x5 x6 (ix4 b s l (0 : Fin 1)))
      = Attend.logit (fun l k => x0 (ix4 b s l k)) (fun k f => x3 (ix2 k f)) (fun f => x4 (ix1 f))
          (fun f => x5 (ix2 f (0 : Fin 1))) (x6 (ix1 (0 : Fin 1))) (fun l => val_main_v17 (F := Ideal) x1 x2 (ix2 b l)) :=
    funext fun l => logit_eq x0 x1 x2 x3 x4 x5 x6 b s l
  rw [val_main_v34_apply, val_main_cst_4_apply]
  simp only [idx34, val_main_v33_apply, val_main_v32_apply, idx32, weight_eq, hz]
  unfold Attend.wholeAt Attend.attend
  show Ideal.ofBits .f32 0x00000000#32 + _ = _
  rw [Ideal.ofBits_zero_f32, zero_add]
  rfl

/-- THE REFERENCE'S RESULT is the specification of its arguments. -/
theorem result_eq :
    val_main_v34 (F := Ideal) x0 x1 x2 x3 x4 x5 x6 = Attend.whole x0 x3 x4 x5 x6 (val_main_v17 (F := Ideal) x1 x2) := by
  funext i
  obtain ⟨b, s, g, rfl⟩ : ∃ (b : Fin 32) (s : Fin 48) (g : Fin 256), i = ix3 b s g := ⟨i 0, i 1, i 2, eq_ix3 i⟩
  exact result_at x0 x1 x2 x3 x4 x5 x6 b s g

end Cert.ReferenceIdeal.RefRow

end
-- ==== Proof.lean ====
/-
  The kernel computes, for every batch row b, sequence position s and feature g,
    out (b, s, g) = Σ_l features (b, s, l, g) · softmax_l (score (b, s, l) · invd (b, l)),
  where score is a two-layer perceptron with ReLU activations read along the feature axis and invd is the
  reciprocal Euclidean distance between a station's location and the target's. The reference computes the
  same expression with einsum contractions and the library softmax. Over the extended reals both are the same
  function of the argument arrays, index by index (Proof/Attend.lean states it): the kernel's matrix product over
  flattened rows and the reference's contraction are the same sums, a change of float format is the identity,
  the sums start from zero and the maxima from minus infinity on both sides, and the reciprocal distances are
  the same host operations in both programs. The only laws used are 0 + x = x and max ⊥ x = x, so no entry
  needs to be finite.

  Proof/KernelRow.lean reads the kernel body's value at one entry, Proof/KernelArray.lean passes from the grid's
  sixteen blocks to the whole result array, Proof/RefRow.lean reads the reference at one entry; the three frames
  are the generated ones, and the idealization rewrote nothing.
-/
import proofs.«104061_j38414187495506_2_alg».proof.Defs
import proofs.«104061_j38414187495506_2_alg».proof.Proof.Gen.Kernel
import proofs.«104061_j38414187495506_2_alg».proof.Proof.Gen.Kernel.Skeleton
import proofs.«104061_j38414187495506_2_alg».proof.Proof.Gen.Kernel.Launch
import proofs.«104061_j38414187495506_2_alg».proof.Proof.Gen.Kernel.Points
import proofs.«104061_j38414187495506_2_alg».proof.Proof.Gen.Kernel.Frame
import proofs.«104061_j38414187495506_2_alg».proof.Proof.Gen.KernelIdeal
import proofs.«104061_j38414187495506_2_alg».proof.Proof.Gen.KernelIdeal.Skeleton
import proofs.«104061_j38414187495506_2_alg».proof.Proof.Gen.KernelIdeal.Launch
import proofs.«104061_j38414187495506_2_alg».proof.Proof.Gen.KernelIdeal.Points
import proofs.«104061_j38414187495506_2_alg».proof.Proof.Gen.KernelIdeal.Frame
import proofs.«104061_j38414187495506_2_alg».proof.Proof.Gen.KernelIdeal.Value
import proofs.«104061_j38414187495506_2_alg».proof.Proof.Gen.ReferenceIdeal
import proofs.«104061_j38414187495506_2_alg».proof.Proof.Gen.ReferenceIdeal.Run
import proofs.«104061_j38414187495506_2_alg».proof.Proof.Gen.ReferenceIdeal.Read
import proofs.«104061_j38414187495506_2_alg».proof.Proof.Gen.Pre_finite_inputs
import proofs.«104061_j38414187495506_2_alg».proof.Proof.KernelArray
import proofs.«104061_j38414187495506_2_alg».proof.Proof.RefRow
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's reciprocal distances are the kernel's: the same host operations on the same two arguments. -/
theorem recip_eq (x1 : FVec Ideal Cert.KernelIdeal.S32x64x2 .f32) (x2 : FVec Ideal Cert.KernelIdeal.S32x2 .f32) :
    Cert.ReferenceIdeal.Read.val_main_v17 (F := Ideal) x1 x2 = Cert.KernelIdeal.Whole.recipDist x1 x2 := rfl

/-- From memories that agree on the arguments both programs end with the result array at the attention
    specification of the arguments: the kernel by its blocks (Proof/KernelArray.lean), the reference by its
    operations read at an entry (Proof/RefRow.lean). -/
theorem algebraic : Cert.algebraic_KernelIdeal_ReferenceIdeal := by
  intro m ρ m' ρ' _ hagree
  refine ⟨fun c => Attend.whole (m ((c.tc : Thread Cert.KernelIdeal.nD Cert.KernelIdeal.τ).loc Cert.KernelIdeal.main_arg0)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (Cert.KernelIdeal.Whole.recipDist (m ((c.tc : Thread Cert.KernelIdeal.nD Cert.KernelIdeal.τ).loc Cert.KernelIdeal.main_arg1)) (m ((c.tc : Thread Cert.KernelIdeal.nD Cert.KernelIdeal.τ).loc Cert.KernelIdeal.main_arg2))),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefRow.result_eq, (hagree c).1, (hagree c).2.1,
    (hagree c).2.2.1, (hagree c).2.2.2.1, (hagree c).2.2.2.2.1, (hagree c).2.2.2.2.2.1, (hagree c).2.2.2.2.2.2, recip_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
